-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2000x128 : Shape := ⟨2, ![2000, 128]⟩
abbrev S25x400x10000 : Shape := ⟨3, ![25, 400, 10000]⟩
abbrev S1x128 : Shape := ⟨2, ![1, 128]⟩
abbrev S1x400x10000 : Shape := ⟨3, ![1, 400, 10000]⟩
abbrev S400x128 : Shape := ⟨2, ![400, 128]⟩
abbrev S400x10000 : Shape := ⟨2, ![400, 10000]⟩

abbrev nBuf : Space → Nat
  | .hbm => 14
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S25x400x10000, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S25x400x10000, .f32⟩
  | .hbm, ⟨12, _⟩ => ⟨S1x128, .f32⟩
  | .hbm, ⟨13, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S1x400x10000, .f32⟩
  | .local _ .vmem, ⟨6, _⟩ => ⟨S1x400x10000, .f32⟩
  | .local _ .vmem, ⟨7, _⟩ => ⟨S10000x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S2000x128, .f32⟩
  | .local _ .vmem, ⟨15, _⟩ => ⟨S2000x128, .f32⟩
  | .local _ .vmem, ⟨16, _⟩ => ⟨S1x400x10000, .f32⟩
  | .local _ .vmem, ⟨17, _⟩ => ⟨S1x400x10000, .f32⟩
  | .local _ .vmem, ⟨18, _⟩ => ⟨S10000x128, .f32⟩
  | .local _ .vmem, ⟨19, _⟩ => ⟨S1x128, .f32⟩
  | .local _ .vmem, ⟨20, _⟩ => ⟨S400x128, .f32⟩
  | .local _ .vmem, ⟨21, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S10000x10000_S25x400x10000 : S10000x10000.ShapeCasts S25x400x10000
  shapeCasts_S128_S1x128 : S128.ShapeCasts S1x128
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S2000x128_S2000x128 : S2000x128.ShapeCasts S2000x128
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x400x10000.size a ≤ S25x400x10000.size a
  hwx1_0 : ∀ i : grid1.Coords, EltTy.bits .f32 = 32 ∨ (Rect.block (s := S25x400x10000) S1x400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S10000x128.size a
  hwx2_2 : ∀ i : grid2.Coords, EltTy.bits .f32 = 32 ∨ (Rect.block (s := S10000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x400x10000.size a ≤ S25x400x10000.size a
  hwx3_0 : ∀ i : grid3.Coords, EltTy.bits .f32 = 32 ∨ (Rect.block (s := S25x400x10000) S1x400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .f32 = 32 ∨ (Rect.block (s := S10000x128) S400x128.size (cc3_transform_3 i) (hinb3_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S1x400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.ResultRun.lean ====
/-
  The idealized kernel's run with its RESULT named. @main is four pipelined matrix products among two stretches of
  reshapes; the buffer contents at the boundaries between these six segments are a fold from the launch memory
  (`Gen.W0` … `Gen.W6`). Every weakly fair execution terminates in a state whose unscoped buffers hold the last
  boundary's contents `Gen.W6`: read at the result buffer this gives the result array, read at the six argument
  buffers it gives the arguments as launched. What `Gen.W6` holds at the result buffer, as a function of the
  arguments, is worked out in the modules that import this one.
-/
import proofs.«166686_g37366215475445_fold_wed_m_921_3_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six arguments as launched. -/
theorem run_result : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Result

end
-- ==== Proof.ProductBlock.lean ====
/-
  One block of the feature product, entry by entry. The body of the first and third pipelined calls multiplies a
  block of 2000 feature rows by the whole 128 × 128 weight matrix on the matrix unit, into a zero accumulator. Read
  over the extended reals the matrix unit's product is the plain sum over the contracted axis, and the zero
  accumulator adds nothing: entry `(p, q)` of the block's result is `Σ_k rows[p, k] · weights[k, q]`.
-/
import proofs.«166686_g37366215475445_fold_wed_m_921_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.ValueIdx
open scoped BigOperators

/-! ## The operand indices of the product, coordinate by coordinate -/

theorem rows_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rows_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rows_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rows_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of 2000 rows and the weights, into a zero accumulator, at entry `(p, q)`: the sum
    over the 128 contracted positions of the row's entry times the weight's. -/
theorem rows_times_weights (x0 : FVec Ideal S2000x128 .f32) (x1 : FVec Ideal S128x128 .f32) (p : Fin 2000) (q : Fin 128) :
    matmul (F := Ideal) dot_S2000x128_S128x128_S2000x128_1_0_0_1_n_n none x0 x1 (constant (F := Ideal) S2000x128 .f32 0x00000000#32) (ix2 p q)
      = ∑ k : Fin 128, x0 (ix2 p k) * x1 (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact rows_lhs_0 _ _
    | ⟨1, _⟩ => exact (rows_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rows_rhs_0 _ _).trans hk
    | ⟨1, _⟩ => exact rows_rhs_1 _ _)
  rw [el, er]

/-- The first call's stored value at entry `(p, q)`. -/
theorem product_first (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact rows_times_weights x0 x1 p q

/-- The third call's stored value at entry `(p, q)`: the same product (its shape cast is of a shape to itself). -/
theorem product_second (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  refine Eq.trans ?_ (rows_times_weights x0 x1 p q)
  rw [shapeCast_self]

end Cert.KernelIdeal.Blocks

end
-- ==== Proof.Layers.lean ====
/-
  The two graph-convolution layers as functions of whole arrays over the extended reals, index by index.

  A layer is  relu (A · (H · W) + b):  first every row of the features `H` [10000, 128] is multiplied by the weight
  matrix `W` [128, 128] (`project`), then every row of the dense adjacency `A` [10000, 10000] is multiplied by that
  product, the bias `b` [128] is added along the rows and the result is cut off below at zero (`aggregate`). Two such
  layers in a row, with the same adjacency, are `twoLayers`.

  The pipelined program reads the adjacency as 25 slabs of 400 rows ([25, 400, 10000]) and the bias as one row
  ([1, 128]); `aggregateSlabs` is the aggregation written over these, and `aggregateSlabs_reshape` says it is the
  plain one when the slabs and the row are the row-major reshapes of the matrix and the vector: row `r` of the matrix
  is row `r % 400` of slab `r / 400`.
-/
import Idealize.ShloMosaic.PureOps.Ideal
import Idealize.ShloMosaic.Lib.ValueIdx
import Idealize.ShloMosaic.Lib.Pipeline.Value

noncomputable section

namespace Cert.Gcn

open Idealize.ShloMosaic Idealize.ShloMosaic.ValueIdx
open scoped BigOperators

/-- Node features, and every intermediate and final result: one row of 128 numbers per node. -/
abbrev Rows : Shape := ⟨2, ![10000, 128]⟩
/-- The dense adjacency matrix. -/
abbrev Adj : Shape := ⟨2, ![10000, 10000]⟩
/-- A layer's weight matrix. -/
abbrev Wt : Shape := ⟨2, ![128, 128]⟩
/-- A layer's bias. -/
abbrev Bias : Shape := ⟨1, ![128]⟩
/-- The adjacency as 25 slabs of 400 rows. -/
abbrev Slabs : Shape := ⟨3, ![25, 400, 10000]⟩
/-- The bias as one row. -/
abbrev BiasRow : Shape := ⟨2, ![1, 128]⟩

/-- `(H · W)[r, j] = Σ_k H[r, k] · W[k, j]`. -/
def project (h : Rows.Idx → EReal) (w : Wt.Idx → EReal) : Rows.Idx → EReal :=
  fun i => ∑ k : Fin 128, h (ix2 (⟨(i 0).val, (i 0).isLt⟩ : Fin 10000) k) * w (ix2 k (⟨(i 1).val, (i 1).isLt⟩ : Fin 128))

/-- `max (Σ_k A[r, k] · S[k, j] + b[j], 0)`. -/
def aggregate (a : Adj.Idx → EReal) (s : Rows.Idx → EReal) (b : Bias.Idx → EReal) : Rows.Idx → EReal :=
  fun i => max ((∑ k : Fin 10000, a (ix2 (⟨(i 0).val, (i 0).isLt⟩ : Fin 10000) k) * s (ix2 k (⟨(i 1).val, (i 1).isLt⟩ : Fin 128)))
    + b (ix1 (⟨(i 1).val, (i 1).isLt⟩ : Fin 128))) 0

/-- The same over the adjacency in slabs and the bias as a row: row `r` is row `r % 400` of slab `r / 400`. -/
def aggregateSlabs (a3 : Slabs.Idx → EReal) (s : Rows.Idx → EReal) (b2 : BiasRow.Idx → EReal) : Rows.Idx → EReal :=
  fun i => max ((∑ k : Fin 10000,
      a3 (ix3 (⟨(i 0).val / 400, by have h : (i 0).val < 10000 := (i 0).isLt; omega⟩ : Fin 25)
        (⟨(i 0).val % 400, Nat.mod_lt _ (by decide)⟩ : Fin 400) k) * s (ix2 k (⟨(i 1).val, (i 1).isLt⟩ : Fin 128)))
    + b2 (ix2 (0 : Fin 1) (⟨(i 1).val, (i 1).isLt⟩ : Fin 128))) 0

/-- Two layers with one adjacency. -/
def twoLayers (x : Rows.Idx → EReal) (a : Adj.Idx → EReal) (w1 : Wt.Idx → EReal) (b1 : Bias.Idx → EReal)
    (w2 : Wt.Idx → EReal) (b2 : Bias.Idx → EReal) : Rows.Idx → EReal :=
  aggregate a (project (aggregate a (project x w1) b1) w2) b2

/-- Slab `g`, row `r`, column `k` of the reshaped adjacency is entry `(400 g + r, k)` of the matrix. -/
theorem slabs_apply (a : Adj.Idx → EReal) (h : Adj.ShapeCasts Slabs) (g : Fin 25) (r : Fin 400) (k : Fin 10000) :
    shapeCast Slabs a h (ix3 g r k)
      = a (ix2 (⟨g.val * 400 + r.val, by have := g.isLt; have := r.isLt; omega⟩ : Fin 10000) k) :=
  shapeCast_apply a h _ _ (by
    rw [Shape.rowMajor_val_two, Shape.rowMajor_val_three]
    show (g.val * 400 + r.val) * 10000 + k.val = (g.val * 400 + r.val) * 10000 + k.val
    rfl)

/-- Column `j` of the bias as a row is entry `j` of the bias. -/
theorem biasRow_apply (b : Bias.Idx → EReal) (h : Bias.ShapeCasts BiasRow) (j : Fin 128) :
    shapeCast BiasRow b h (ix2 (0 : Fin 1) j) = b (ix1 j) :=
  shapeCast_apply b h _ _ (by
    rw [Shape.rowMajor_val_one, Shape.rowMajor_val_two]
    show j.val = 0 * 128 + j.val
    omega)

/-- Over the row-major reshapes of the matrix and the vector the slab form is the plain aggregation. -/
theorem aggregateSlabs_reshape (a : Adj.Idx → EReal) (s : Rows.Idx → EReal) (b : Bias.Idx → EReal)
    (h1 : Adj.ShapeCasts Slabs) (h2 : Bias.ShapeCasts BiasRow) :
    aggregateSlabs (shapeCast Slabs a h1) s (shapeCast BiasRow b h2) = aggregate a s b := by
  funext i
  unfold aggregateSlabs aggregate
  rw [biasRow_apply]
  refine congrArg (fun z => max (z + _) 0) (Finset.sum_congr rfl fun k _ => ?_)
  rw [slabs_apply]
  refine congrArg (fun z => a (ix2 z k) * _) (Fin.ext ?_)
  show (i 0).val / 400 * 400 + (i 0).val % 400 = (i 0).val
  exact Nat.div_add_mod' _ _

end Cert.Gcn

end
-- ==== Proof.ProductArray.lean ====
/-
  The two feature products as whole arrays. Each of the first and third pipelined calls runs over five grid points;
  point `t` reads rows `2000 t … 2000 t + 1999` of its features and the whole weight matrix, and writes back the same
  rows of its result. Every entry the point writes is the plain product's entry at the same row and column, and the
  five row ranges tile the 10000 rows, so after the call the result array IS the product `features · weights` of the
  arrays as the call finds them — whatever those arrays are: everything here is stated at any contents `V` of the
  buffers when the call is entered.
-/
import proofs.«166686_g37366215475445_fold_wed_m_921_3_alg».proof.Proof.Gen.KernelIdeal.Frame
import proofs.«166686_g37366215475445_fold_wed_m_921_3_alg».proof.Proof.ProductBlock
import proofs.«166686_g37366215475445_fold_wed_m_921_3_alg».proof.Proof.Layers

set_option maxRecDepth 16384

noncomputable section

namespace Cert.KernelIdeal.Arrays

open Cert.KernelIdeal Cert.KernelIdeal.Gen Cert.KernelIdeal.Blocks Cert.Gcn
open Idealize.ShloMosaic Idealize.ShloMosaic.TcCoe Idealize.ShloMosaic.ValueIdx Idealize.SL.Sem
open Idealize.ShloMosaic.Pipeline (Dat)
open scoped BigOperators

theorem zeros2 : (![0, 0] : Fin 2 → Nat) = fun _ => 0 := funext fun a => by fin_cases a <;> rfl

variable (V : (c : Dev nD) → (b : Ref sig .tc) → Buf (Elt Ideal) ((c : Thread nD τ).loc b))

/-! ## The first feature product (pipelined call 0) -/

/-- Its index maps over the five grid points: point `t` takes rows `2000 t … 2000 t + 1999` of the features and of the
    result, and the whole weight matrix. -/
theorem index_maps_first : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the features' block at point `t` is entry `(2000 t + p, k)` of the features. -/
theorem rows_block_first (c : Dev nD) (t : Fin cfg0.N) (p : Fin 2000) (k : Fin 128) (r : Fin 10000)
    (hr : r.val = t.val * 2000 + p.val) :
    iblk0 V c 0 t (ix2 p k) = V c main_arg0 (ix2 r k) := by
  obtain ⟨e0, e1, -⟩ := index_maps_first t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The weights' block at every point is the whole weight matrix. -/
theorem weights_block_first (c : Dev nD) (t : Fin cfg0.N) (k : Fin 128) (q : Fin 128) :
    iblk0 V c 1 t (ix2 k q) = V c main_arg2 (ix2 k q) := by
  obtain ⟨-, -, e2, e3, -⟩ := index_maps_first t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the product of the features and the weights as the call finds them. -/
theorem written_back_first (c : Dev nD) (t : Fin cfg0.N) :
    (dat0 V c).flushed 2 t = ((cfg0.win 2).blk t).view.read (Elt Ideal) (project (V c main_arg0) (V c main_arg2)) := by
  show (cfg0.win 2).cut (grid0.coords t) ((dat0 V c).after 2 t) = _
  rw [after0_2]
  unfold out0_2
  rw [View.canon_unit_zero zeros2]
  simp only [View.ld_unit_zero (S := S2000x128) zeros2, View.ld_unit_zero (S := S128x128) zeros2]
  obtain ⟨-, -, -, -, e4, e5⟩ := index_maps_first t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = project (V c main_arg0) (V c main_arg2) (((cfg0.win 2).blk t).view.emb (ix2 p q))
  refine (product_first _ _ p q).trans ?_
  have hr : (((cfg0.win 2).blk t).view.emb (ix2 p q) 0).val = t.val * 2000 + p.val := by
    show win0_2.index t (0 : Fin 2) * 2000 + 1 * p.val = _; omega
  have hq : (((cfg0.win 2).blk t).view.emb (ix2 p q) 1).val = q.val := by
    show win0_2.index t (1 : Fin 2) * 128 + 1 * q.val = _; omega
  unfold project
  refine Finset.sum_congr rfl fun k _ => ?_
  refine congrArg₂ (· * ·) (rows_block_first V c t p k _ hr) ?_
  refine (weights_block_first V c t k q).trans (congrArg (fun z => V c main_arg2 (ix2 k z)) (Fin.ext hq.symm))

/-- An index of the result is in point `t`'s block iff each coordinate is in the block's range on its axis. -/
theorem in_block_first (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every index of the result is in the block of the point `row / 2000`. -/
theorem covered_first (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : grid0.N = 5 := N_0
  obtain ⟨t, ht⟩ : ∃ t : Fin cfg0.N, t.val = (i 0).val / 2000 := ⟨⟨(i 0).val / 2000, by show _ < grid0.N; omega⟩, rfl⟩
  obtain ⟨-, -, -, -, e4, e5⟩ := index_maps_first t
  refine ⟨t, flush0_2 t, ?_⟩
  rw [in_block_first]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the call: the product of the features and the weights as the call finds them. -/
theorem product_array_first (c : Dev nD) :
    (dat0 V c).arrAt 2 cfg0.N = project (V c main_arg0) (V c main_arg2) :=
  (dat0 V c).arrAt_eq_of_cover 2 _ (fun t _ => written_back_first V c t) (fun i => covered_first i)

/-! ## The second feature product (pipelined call 2) -/

/-- Its index maps over the five grid points: point `t` takes rows `2000 t … 2000 t + 1999` of the features and of the
    result, and the whole weight matrix. -/
theorem index_maps_second : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of the features' block at point `t` is entry `(2000 t + p, k)` of the features. -/
theorem rows_block_second (c : Dev nD) (t : Fin cfg2.N) (p : Fin 2000) (k : Fin 128) (r : Fin 10000)
    (hr : r.val = t.val * 2000 + p.val) :
    iblk2 V c 0 t (ix2 p k) = V c main_v3 (ix2 r k) := by
  obtain ⟨e0, e1, -⟩ := index_maps_second t
  show V c main_v3 (((cfg2.win 0).blk t).view.emb (ix2 p k)) = V c main_v3 (ix2 r k)
  refine congrArg (V c main_v3) (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- The weights' block at every point is the whole weight matrix. -/
theorem weights_block_second (c : Dev nD) (t : Fin cfg2.N) (k : Fin 128) (q : Fin 128) :
    iblk2 V c 1 t (ix2 k q) = V c main_arg4 (ix2 k q) := by
  obtain ⟨-, -, e2, e3, -⟩ := index_maps_second t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- What point `t` writes back is block `t` of the product of the features and the weights as the call finds them. -/
theorem written_back_second (c : Dev nD) (t : Fin cfg2.N) :
    (dat2 V c).flushed 2 t = ((cfg2.win 2).blk t).view.read (Elt Ideal) (project (V c main_v3) (V c main_arg4)) := by
  show (cfg2.win 2).cut (grid2.coords t) ((dat2 V c).after 2 t) = _
  rw [after2_2]
  unfold out2_2
  rw [View.canon_unit_zero zeros2]
  simp only [View.ld_unit_zero (S := S2000x128) zeros2, View.ld_unit_zero (S := S128x128) zeros2]
  obtain ⟨-, -, -, -, e4, e5⟩ := index_maps_second t
  funext j
  obtain ⟨p, q, rfl⟩ : ∃ (p : Fin 2000) (q : Fin 128), j = ix2 p q := ⟨j 0, j 1, eq_ix2 j⟩
  show k2_pay1 (iblk2 V c 0 t) (iblk2 V c 1 t) (ix2 p q)
    = project (V c main_v3) (V c main_arg4) (((cfg2.win 2).blk t).view.emb (ix2 p q))
  refine (product_second _ _ p q).trans ?_
  have hr : (((cfg2.win 2).blk t).view.emb (ix2 p q) 0).val = t.val * 2000 + p.val := by
    show win2_2.index t (0 : Fin 2) * 2000 + 1 * p.val = _; omega
  have hq : (((cfg2.win 2).blk t).view.emb (ix2 p q) 1).val = q.val := by
    show win2_2.index t (1 : Fin 2) * 128 + 1 * q.val = _; omega
  unfold project
  refine Finset.sum_congr rfl fun k _ => ?_
  refine congrArg₂ (· * ·) (rows_block_second V c t p k _ hr) ?_
  refine (weights_block_second V c t k q).trans (congrArg (fun z => V c main_arg4 (ix2 k z)) (Fin.ext hq.symm))

/-- An index of the result is in point `t`'s block iff each coordinate is in the block's range on its axis. -/
theorem in_block_second (t : Fin cfg2.N) (i : S10000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v4).slice (win2_2.rect t)).set ↔ _
  rw [View.set_slice_whole, Rect.mem_set_unit]
  exact Iff.rfl

/-- Every index of the result is in the block of the point `row / 2000`. -/
theorem covered_second (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  have hN : grid2.N = 5 := N_2
  obtain ⟨t, ht⟩ : ∃ t : Fin cfg2.N, t.val = (i 0).val / 2000 := ⟨⟨(i 0).val / 2000, by show _ < grid2.N; omega⟩, rfl⟩
  obtain ⟨-, -, -, -, e4, e5⟩ := index_maps_second t
  refine ⟨t, flush2_2 t, ?_⟩
  rw [in_block_second]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The result array after the call: the product of the features and the weights as the call finds them. -/
theorem product_array_second (c : Dev nD) :
    (dat2 V c).arrAt 2 cfg2.N = project (V c main_v3) (V c main_arg4) :=
  (dat2 V c).arrAt_eq_of_cover 2 _ (fun t _ => written_back_second V c t) (fun i => covered_second i)

end Cert.KernelIdeal.Arrays

end
-- ==== Proof.AggregateBlock.lean ====
/-
  One block of the aggregation, entry by entry. The body of the second and fourth pipelined calls takes one slab of
  400 adjacency rows (a [1, 400, 10000] block, its unit axis dropped), multiplies it by the whole 10000 × 128 support
  matrix on the matrix unit into a zero accumulator, adds the bias row to every row and cuts the sum off below at
  zero. Over the extended reals: entry `(p, q)` is `max (Σ_k slab[0, p, k] · support[k, q] + bias[0, q], 0)`.
-/
import proofs.«166686_g37366215475445_fold_wed_m_921_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx
open scoped BigOperators

/-! ## The operand indices of the product, coordinate by coordinate -/

theorem slab_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem slab_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem slab_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem slab_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The matrix unit's product of a slab of 400 adjacency rows and the support matrix, into a zero accumulator, at
    entry `(p, q)`: the sum over the 10000 contracted positions. -/
theorem slab_times_support (x0 : FVec Ideal S400x10000 .f32) (x1 : FVec Ideal S10000x128 .f32) (p : Fin 400) (q : Fin 128) :
    matmul (F := Ideal) dot_S400x10000_S10000x128_S400x128_1_0_0_1_n_n none x0 x1 (constant (F := Ideal) S400x128 .f32 0x00000000#32) (ix2 p q)
      = ∑ k : Fin 10000, x0 (ix2 p k) * x1 (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact slab_lhs_0 _ _
    | ⟨1, _⟩ => exact (slab_lhs_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (slab_rhs_0 _ _).trans hk
    | ⟨1, _⟩ => exact slab_rhs_1 _ _)
  rw [el, er]

/-- The second call's stored value at entry `(p, q)`. -/
theorem aggregate_first (v0 : Vec Ideal S1x400x10000 .f32) (v2 : Vec Ideal S10000x128 .f32) (v5 : Vec Ideal S1x128 .f32)
    (p : Fin 400) (q : Fin 128) :
    k1_pay1 (F := Ideal) v0 v2 v5 (ix2 p q)
      = max ((∑ k : Fin 10000, v0 (ix3 (0 : Fin 1) p k) * v2 (ix2 k q)) + v5 (ix2 (0 : Fin 1) q)) 0 := by
  unfold k1_pay1
  refine (maximumf_apply _ _ _).trans ?_
  refine congrArg₂ max ((addf_apply _ _ _).trans (congrArg₂ (· + ·) ?_ ?_)) ?_
  · rw [shapeCast_self]
    refine (slab_times_support _ v2 p q).trans (Finset.sum_congr rfl fun k _ => ?_)
    rw [shapeCast_1ab_ab_apply]
  · rw [shapeCast_self]
    exact broadcastTo_1b_ab_apply v5 _ p q
  · exact Ideal.ofBits_zero_f32

/-- The fourth call's stored value at entry `(p, q)`: the same operations. -/
theorem aggregate_second (v0 : Vec Ideal S1x400x10000 .f32) (v2 : Vec Ideal S10000x128 .f32) (v5 : Vec Ideal S1x128 .f32)
    (p : Fin 400) (q : Fin 128) :
    k3_pay1 (F := Ideal) v0 v2 v5 (ix2 p q)
      = max ((∑ k : Fin 10000, v0 (ix3 (0 : Fin 1) p k) * v2 (ix2 k q)) + v5 (ix2 (0 : Fin 1) q)) 0 := by
  unfold k3_pay1
  refine (maximumf_apply _ _ _).trans ?_
  refine congrArg₂ max ((addf_apply _ _ _).trans (congrArg₂ (· + ·) ?_ ?_)) ?_
  · rw [shapeCast_self]
    refine (slab_times_support _ v2 p q).trans (Finset.sum_congr rfl fun k _ => ?_)
    rw [shapeCast_1ab_ab_apply]
  · rw [shapeCast_self]
    exact broadcastTo_1b_ab_apply v5 _ p q
  · exact Ideal.ofBits_zero_f32

end Cert.KernelIdeal.Blocks

end
-- ==== Proof.AggregateArray.lean ====
/-
  The two aggregations as whole arrays. Each of the second and fourth pipelined calls runs over 25 grid points;
  point `t` reads slab `t` of the adjacency (400 rows), the whole support matrix and the bias row, and writes back rows
  `400 t … 400 t + 399` of its result. Every entry the point writes is the slab-form aggregation's entry at the same
  row and column — row `400 t + p` of the result comes from row `p` of slab `t` — and the 25 row ranges tile the 10000
  rows, so after the call the result array IS `aggregateSlabs` of the arrays as the call finds them, at any contents
  `V` of the buffers when the call is entered.
-/
import proofs.«166686_g37366215475445_fold_wed_m_921_3_alg».proof.Proof.Gen.KernelIdeal.Frame
import proofs.«166686_g37366215475445_fold_wed_m_921_3_alg».proof.Proof.AggregateBlock
import proofs.«166686_g37366215475445_fold_wed_m_921_3_alg».proof.Proof.Layers

set_option maxRecDepth 16384

noncomputable section

namespace Cert.KernelIdeal.Slabs

open Cert.KernelIdeal Cert.KernelIdeal.Gen Cert.KernelIdeal.Blocks Cert.Gcn
open Idealize.ShloMosaic Idealize.ShloMosaic.TcCoe Idealize.ShloMosaic.ValueIdx Idealize.SL.Sem
open Idealize.ShloMosaic.Pipeline (Dat)
open scoped BigOperators

theorem zeros2' : (![0, 0] : Fin 2 → Nat) = fun _ => 0 := funext fun a => by fin_cases a <;> rfl
theorem zeros3 : (![0, 0, 0] : Fin 3 → Nat) = fun _ => 0 := funext fun a => by fin_cases a <;> rfl

variable (V : (c : Dev nD) → (b : Ref sig .tc) → Buf (Elt Ideal) ((c : Thread nD τ).loc b))

/-! ## The first aggregation (pipelined call 1) -/

/-- Its index maps over the 25 grid points: point `t` takes slab `t` of the adjacency and rows `400 t … 400 t + 399`
    of the result, and the whole support matrix and bias row. -/
theorem index_maps_first : ∀ t : Fin cfg1.N, win1_0.index t (0 : Fin 3) = t.val ∧ win1_0.index t (1 : Fin 3) = 0
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(0, p, k)` of the adjacency's block at point `t` is entry `(t, p, k)` of the slabs. -/
theorem slab_block_first (c : Dev nD) (t : Fin cfg1.N) (p : Fin 400) (k : Fin 10000) (g : Fin 25) (p' : Fin 400)
    (hg : g.val = t.val) (hp : p'.val = p.val) :
    iblk1 V c 0 t (ix3 (0 : Fin 1) p k) = V c main_v1 (ix3 g p' k) := by
  obtain ⟨e0, e1, e2, -⟩ := index_maps_first t
  show V c main_v1 (((cfg1.win 0).blk t).view.emb (ix3 (0 : Fin 1) p k)) = V c main_v1 (ix3 g p' k)
  refine congrArg (V c main_v1) (funext fun a => Fin.ext ?_)
  match a with
  | ⟨0, _⟩ => show win1_0.index t (0 : Fin 3) * 1 + 1 * 0 = g.val; omega
  | ⟨1, _⟩ => show win1_0.index t (1 : Fin 3) * 400 + 1 * p.val = p'.val; omega
  | ⟨2, _⟩ => show win1_0.index t (2 : Fin 3) * 10000 + 1 * k.val = k.val; omega

/-- The support's block at every point is the whole support matrix. -/
theorem support_block_first (c : Dev nD) (t : Fin cfg1.N) (k : Fin 10000) (q : Fin 128) (q' : Fin 128) (hq : q'.val = q.val) :
    iblk1 V c 1 t (ix2 k q) = V c main_v0 (ix2 k q') := by
  obtain ⟨-, -, -, e3, e4, -⟩ := index_maps_first t
  show V c main_v0 (((cfg1.win 1).blk t).view.emb (ix2 k q)) = V c main_v0 (ix2 k q')
  refine congrArg (V c main_v0) (funext fun a => Fin.ext ?_)
  match a with
  | ⟨0, _⟩ => show win1_1.index t (0 : Fin 2) * 10000 + 1 * k.val = k.val; omega
  | ⟨1, _⟩ => show win1_1.index t (1 : Fin 2) * 128 + 1 * q.val = q'.val; omega

/-- The bias row's block at every point is the whole bias row. -/
theorem bias_block_first (c : Dev nD) (t : Fin cfg1.N) (q : Fin 128) (q' : Fin 128) (hq : q'.val = q.val) :
    iblk1 V c 2 t (ix2 (0 : Fin 1) q) = V c main_v2 (ix2 (0 : Fin 1) q') := by
  obtain ⟨-, -, -, -, -, e5, e6, -⟩ := index_maps_first t
  show V c main_v2 (((cfg1.win 2).blk t).view.emb (ix2 (0 : Fin 1) q)) = V c main_v2 (ix2 (0 : Fin 1) q')
  refine congrArg (V c main_v2) (funext fun a => Fin.ext ?_)
  match a with
  | ⟨0, _⟩ => show win1_2.index t (0 : Fin 2) * 1 + 1 * 0 = 0; omega
  | ⟨1, _⟩ => show win1_2.index t (1 : Fin 2) * 128 + 1 * q.val = q'.val; omega

/-- What point `t` writes back is block `t` of the aggregation of the slabs, the support and the bias row as the call
    finds them. -/
theorem written_back_first (c : Dev nD) (t : Fin cfg1.N) :
    (dat1 V c).flushed 3 t
      = ((cfg1.win 3).blk t).view.read (Elt Ideal) (aggregateSlabs (V c main_v1) (V c main_v0) (V c main_v2)) := by
  show (cfg1.win 3).cut (grid1.coords t) ((dat1 V c).after 3 t) = _
  rw [after1_3]
  unfold out1_3
  rw [View.canon_unit_zero zeros2']
  simp only [View.ld_unit_zero (S := S1x400x10000) zeros3, View.ld_unit_zero (S := S10000x128) zeros2',
    View.ld_unit_zero (S := S1x128) zeros2']
  obtain ⟨-, -, -, -, -, -, -, e7, e8⟩ := index_maps_first t
  have hN : grid1.N = 25 := N_1
  have ht : t.val < 25 := by have h : t.val < grid1.N := t.isLt; omega
  funext j
  obtain ⟨p, q, rfl⟩ : ∃ (p : Fin 400) (q : Fin 128), j = ix2 p q := ⟨j 0, j 1, eq_ix2 j⟩
  show k1_pay1 (iblk1 V c 0 t) (iblk1 V c 1 t) (iblk1 V c 2 t) (ix2 p q)
    = aggregateSlabs (V c main_v1) (V c main_v0) (V c main_v2) (((cfg1.win 3).blk t).view.emb (ix2 p q))
  refine (aggregate_first _ _ _ p q).trans ?_
  have hr : (((cfg1.win 3).blk t).view.emb (ix2 p q) 0).val = t.val * 400 + p.val := by
    show win1_3.index t (0 : Fin 2) * 400 + 1 * p.val = _; omega
  have hq : (((cfg1.win 3).blk t).view.emb (ix2 p q) 1).val = q.val := by
    show win1_3.index t (1 : Fin 2) * 128 + 1 * q.val = _; omega
  have hp := p.isLt
  unfold aggregateSlabs
  refine congrArg₂ max (congrArg₂ (· + ·) (Finset.sum_congr rfl fun k _ => congrArg₂ (· * ·) ?_ ?_) ?_) rfl
  · exact slab_block_first V c t p k _ _ (by show _ / 400 = t.val; omega) (by show _ % 400 = p.val; omega)
  · exact support_block_first V c t k q _ hq
  · exact bias_block_first V c t q _ hq

/-- An index of the result is in point `t`'s block iff each coordinate is in the block's range on its axis. -/
theorem in_block_first (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v3).slice (win1_3.rect t)).set ↔ _
  rw [View.set_slice_whole, Rect.mem_set_unit]
  exact Iff.rfl

/-- Every index of the result is in the block of the point `row / 400`. -/
theorem covered_first (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  have hN : grid1.N = 25 := N_1
  obtain ⟨t, ht⟩ : ∃ t : Fin cfg1.N, t.val = (i 0).val / 400 := ⟨⟨(i 0).val / 400, by show _ < grid1.N; omega⟩, rfl⟩
  obtain ⟨-, -, -, -, -, -, -, e7, e8⟩ := index_maps_first t
  refine ⟨t, flush1_3 t, ?_⟩
  rw [in_block_first]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

/-- The result array after the call: the aggregation of the slabs, the support and the bias row as the call finds
    them. -/
theorem aggregate_array_first (c : Dev nD) :
    (dat1 V c).arrAt 3 cfg1.N = aggregateSlabs (V c main_v1) (V c main_v0) (V c main_v2) :=
  (dat1 V c).arrAt_eq_of_cover 3 _ (fun t _ => written_back_first V c t) (fun i => covered_first i)

/-! ## The second aggregation (pipelined call 3) -/

/-- Its index maps over the 25 grid points: point `t` takes slab `t` of the adjacency and rows `400 t … 400 t + 399`
    of the result, and the whole support matrix and bias row. -/
theorem index_maps_second : ∀ t : Fin cfg3.N, win3_0.index t (0 : Fin 3) = t.val ∧ win3_0.index t (1 : Fin 3) = 0
    ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry `(0, p, k)` of the adjacency's block at point `t` is entry `(t, p, k)` of the slabs. -/
theorem slab_block_second (c : Dev nD) (t : Fin cfg3.N) (p : Fin 400) (k : Fin 10000) (g : Fin 25) (p' : Fin 400)
    (hg : g.val = t.val) (hp : p'.val = p.val) :
    iblk3 V c 0 t (ix3 (0 : Fin 1) p k) = V c main_v5 (ix3 g p' k) := by
  obtain ⟨e0, e1, e2, -⟩ := index_maps_second t
  show V c main_v5 (((cfg3.win 0).blk t).view.emb (ix3 (0 : Fin 1) p k)) = V c main_v5 (ix3 g p' k)
  refine congrArg (V c main_v5) (funext fun a => Fin.ext ?_)
  match a with
  | ⟨0, _⟩ => show win3_0.index t (0 : Fin 3) * 1 + 1 * 0 = g.val; omega
  | ⟨1, _⟩ => show win3_0.index t (1 : Fin 3) * 400 + 1 * p.val = p'.val; omega
  | ⟨2, _⟩ => show win3_0.index t (2 : Fin 3) * 10000 + 1 * k.val = k.val; omega

/-- The support's block at every point is the whole support matrix. -/
theorem support_block_second (c : Dev nD) (t : Fin cfg3.N) (k : Fin 10000) (q : Fin 128) (q' : Fin 128) (hq : q'.val = q.val) :
    iblk3 V c 1 t (ix2 k q) = V c main_v4 (ix2 k q') := by
  obtain ⟨-, -, -, e3, e4, -⟩ := index_maps_second t
  show V c main_v4 (((cfg3.win 1).blk t).view.emb (ix2 k q)) = V c main_v4 (ix2 k q')
  refine congrArg (V c main_v4) (funext fun a => Fin.ext ?_)
  match a with
  | ⟨0, _⟩ => show win3_1.index t (0 : Fin 2) * 10000 + 1 * k.val = k.val; omega
  | ⟨1, _⟩ => show win3_1.index t (1 : Fin 2) * 128 + 1 * q.val = q'.val; omega

/-- The bias row's block at every point is the whole bias row. -/
theorem bias_block_second (c : Dev nD) (t : Fin cfg3.N) (q : Fin 128) (q' : Fin 128) (hq : q'.val = q.val) :
    iblk3 V c 2 t (ix2 (0 : Fin 1) q) = V c main_v6 (ix2 (0 : Fin 1) q') := by
  obtain ⟨-, -, -, -, -, e5, e6, -⟩ := index_maps_second t
  show V c main_v6 (((cfg3.win 2).blk t).view.emb (ix2 (0 : Fin 1) q)) = V c main_v6 (ix2 (0 : Fin 1) q')
  refine congrArg (V c main_v6) (funext fun a => Fin.ext ?_)
  match a with
  | ⟨0, _⟩ => show win3_2.index t (0 : Fin 2) * 1 + 1 * 0 = 0; omega
  | ⟨1, _⟩ => show win3_2.index t (1 : Fin 2) * 128 + 1 * q.val = q'.val; omega

/-- What point `t` writes back is block `t` of the aggregation of the slabs, the support and the bias row as the call
    finds them. -/
theorem written_back_second (c : Dev nD) (t : Fin cfg3.N) :
    (dat3 V c).flushed 3 t
      = ((cfg3.win 3).blk t).view.read (Elt Ideal) (aggregateSlabs (V c main_v5) (V c main_v4) (V c main_v6)) := by
  show (cfg3.win 3).cut (grid3.coords t) ((dat3 V c).after 3 t) = _
  rw [after3_3]
  unfold out3_3
  rw [View.canon_unit_zero zeros2']
  simp only [View.ld_unit_zero (S := S1x400x10000) zeros3, View.ld_unit_zero (S := S10000x128) zeros2',
    View.ld_unit_zero (S := S1x128) zeros2']
  obtain ⟨-, -, -, -, -, -, -, e7, e8⟩ := index_maps_second t
  have hN : grid3.N = 25 := N_3
  have ht : t.val < 25 := by have h : t.val < grid3.N := t.isLt; omega
  funext j
  obtain ⟨p, q, rfl⟩ : ∃ (p : Fin 400) (q : Fin 128), j = ix2 p q := ⟨j 0, j 1, eq_ix2 j⟩
  show k3_pay1 (iblk3 V c 0 t) (iblk3 V c 1 t) (iblk3 V c 2 t) (ix2 p q)
    = aggregateSlabs (V c main_v5) (V c main_v4) (V c main_v6) (((cfg3.win 3).blk t).view.emb (ix2 p q))
  refine (aggregate_second _ _ _ p q).trans ?_
  have hr : (((cfg3.win 3).blk t).view.emb (ix2 p q) 0).val = t.val * 400 + p.val := by
    show win3_3.index t (0 : Fin 2) * 400 + 1 * p.val = _; omega
  have hq : (((cfg3.win 3).blk t).view.emb (ix2 p q) 1).val = q.val := by
    show win3_3.index t (1 : Fin 2) * 128 + 1 * q.val = _; omega
  have hp := p.isLt
  unfold aggregateSlabs
  refine congrArg₂ max (congrArg₂ (· + ·) (Finset.sum_congr rfl fun k _ => congrArg₂ (· * ·) ?_ ?_) ?_) rfl
  · exact slab_block_second V c t p k _ _ (by show _ / 400 = t.val; omega) (by show _ % 400 = p.val; omega)
  · exact support_block_second V c t k q _ hq
  · exact bias_block_second V c t q _ hq

/-- An index of the result is in point `t`'s block iff each coordinate is in the block's range on its axis. -/
theorem in_block_second (t : Fin cfg3.N) (i : S10000x128.Idx) :
    i ∈ ((cfg3.win 3).blk t).view.set ↔ ∀ a : Fin 2, win3_3.index t a * S400x128.size a ≤ (i a).val ∧ (i a).val < win3_3.index t a * S400x128.size a + S400x128.size a := by
  show i ∈ ((View.whole main_v7).slice (win3_3.rect t)).set ↔ _
  rw [View.set_slice_whole, Rect.mem_set_unit]
  exact Iff.rfl

/-- Every index of the result is in the block of the point `row / 400`. -/
theorem covered_second (i : S10000x128.Idx) :
    ∃ t : Fin cfg3.N, (cfg3.win 3).flush t = true ∧ i ∈ ((cfg3.win 3).blk t).view.set := by
  have hi0 : (i 0).val < 10000 := (i 0).isLt
  have hi1 : (i 1).val < 128 := (i 1).isLt
  have hN : grid3.N = 25 := N_3
  obtain ⟨t, ht⟩ : ∃ t : Fin cfg3.N, t.val = (i 0).val / 400 := ⟨⟨(i 0).val / 400, by show _ < grid3.N; omega⟩, rfl⟩
  obtain ⟨-, -, -, -, -, -, -, e7, e8⟩ := index_maps_second t
  refine ⟨t, flush3_3 t, ?_⟩
  rw [in_block_second]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 128 ≤ (i 1).val ∧ (i 1).val < win3_3.index t (1 : Fin 2) * 128 + 128; omega

/-- The result array after the call: the aggregation of the slabs, the support and the bias row as the call finds
    them. -/
theorem aggregate_array_second (c : Dev nD) :
    (dat3 V c).arrAt 3 cfg3.N = aggregateSlabs (V c main_v5) (V c main_v4) (V c main_v6) :=
  (dat3 V c).arrAt_eq_of_cover 3 _ (fun t _ => written_back_second V c t) (fun i => covered_second i)

end Cert.KernelIdeal.Slabs

end
-- ==== Proof.KernelValue.lean ====
/-
  What the idealized kernel's result holds, as a function of its arguments. The buffer contents at the boundaries
  between @main's six segments are a fold from the launch memory. Walking it:
    * the first call leaves  S₁ = X · W₁  in its result (the feature product of the arguments as launched);
    * the first stretch reshapes the adjacency to 25 slabs and the first bias to a row, and touches nothing else;
    * the second call leaves the slab-form aggregation of those reshapes and S₁, which is the plain
      H = relu (A · S₁ + b₁)  because the slabs and the row ARE the row-major reshapes of `A` and `b₁`;
    * the third call leaves  S₂ = H · W₂ ;
    * the second stretch reshapes the adjacency and the second bias again;
    * the fourth call leaves  relu (A · S₂ + b₂).
  No call and no stretch writes an argument, so each argument read along the way is the launch memory's. The
  result is `twoLayers` of the six arguments, and the kernel's run is re-posted at that value.
-/
import proofs.«166686_g37366215475445_fold_wed_m_921_3_alg».proof.Proof.Gen.KernelIdeal.Frame
import proofs.«166686_g37366215475445_fold_wed_m_921_3_alg».proof.Proof.ResultRun
import proofs.«166686_g37366215475445_fold_wed_m_921_3_alg».proof.Proof.ProductArray
import proofs.«166686_g37366215475445_fold_wed_m_921_3_alg».proof.Proof.AggregateArray
import proofs.«166686_g37366215475445_fold_wed_m_921_3_alg».proof.Proof.Layers
import Idealize.ShloMosaic.Lib.StableHlo.Run

set_option maxRecDepth 16384

noncomputable section

namespace Cert.KernelIdeal.Walk

open Cert.KernelIdeal Cert.KernelIdeal.Gen Cert.KernelIdeal.Arrays Cert.KernelIdeal.Slabs Cert.Gcn
open Idealize.ShloMosaic Idealize.ShloMosaic.TcCoe Idealize.SL.Sem Idealize.ShloMosaic.StableHlo

/-! ## The two stretches of reshapes, from any contents -/

theorem stretch1_slabs (W : Valuation τ sig (Elt Ideal)) :
    StableHlo.after (hostOps1 (F := Ideal)) W (Proc.devRef .tc main_v1)
      = shapeCast S25x400x10000 (W (Proc.devRef .tc main_arg1)) shapeCasts_S10000x10000_S25x400x10000 := by
  after_results; rfl
theorem stretch1_biasRow (W : Valuation τ sig (Elt Ideal)) :
    StableHlo.after (hostOps1 (F := Ideal)) W (Proc.devRef .tc main_v2)
      = shapeCast S1x128 (W (Proc.devRef .tc main_arg3)) shapeCasts_S128_S1x128 := by
  after_results; rfl
theorem stretch1_keeps_v0 (W : Valuation τ sig (Elt Ideal)) :
    StableHlo.after (hostOps1 (F := Ideal)) W (Proc.devRef .tc main_v0) = W (Proc.devRef .tc main_v0) := by
  after_results
theorem stretch1_keeps_arg1 (W : Valuation τ sig (Elt Ideal)) :
    StableHlo.after (hostOps1 (F := Ideal)) W (Proc.devRef .tc main_arg1) = W (Proc.devRef .tc main_arg1) := by
  after_results
theorem stretch1_keeps_arg4 (W : Valuation τ sig (Elt Ideal)) :
    StableHlo.after (hostOps1 (F := Ideal)) W (Proc.devRef .tc main_arg4) = W (Proc.devRef .tc main_arg4) := by
  after_results
theorem stretch1_keeps_arg5 (W : Valuation τ sig (Elt Ideal)) :
    StableHlo.after (hostOps1 (F := Ideal)) W (Proc.devRef .tc main_arg5) = W (Proc.devRef .tc main_arg5) := by
  after_results
theorem stretch2_slabs (W : Valuation τ sig (Elt Ideal)) :
    StableHlo.after (hostOps3 (F := Ideal)) W (Proc.devRef .tc main_v5)
      = shapeCast S25x400x10000 (W (Proc.devRef .tc main_arg1)) shapeCasts_S10000x10000_S25x400x10000 := by
  after_results; rfl
theorem stretch2_biasRow (W : Valuation τ sig (Elt Ideal)) :
    StableHlo.after (hostOps3 (F := Ideal)) W (Proc.devRef .tc main_v6)
      = shapeCast S1x128 (W (Proc.devRef .tc main_arg5)) shapeCasts_S128_S1x128 := by
  after_results; rfl
theorem stretch2_keeps_v4 (W : Valuation τ sig (Elt Ideal)) :
    StableHlo.after (hostOps3 (F := Ideal)) W (Proc.devRef .tc main_v4) = W (Proc.devRef .tc main_v4) := by
  after_results

variable (m : (ℓ : Loc nD τ sig) → Buf (Elt Ideal) ℓ) (ρ : Dev nD → PrngReg) (c : Dev nD)

/-! ## The arguments read along the way are the launch memory's -/

theorem adj_after_call0 : W1 m ρ c (Proc.devRef .tc main_arg1) = (m ((c : Thread nD τ).loc main_arg1)) :=
  W1_of_ne m ρ c main_arg1 (by decide)
theorem bias1_after_call0 : W1 m ρ c (Proc.devRef .tc main_arg3) = (m ((c : Thread nD τ).loc main_arg3)) :=
  W1_of_ne m ρ c main_arg3 (by decide)
theorem weights2_after_call1 : W3 m ρ c (Proc.devRef .tc main_arg4) = (m ((c : Thread nD τ).loc main_arg4)) :=
  (W3_of_ne m ρ c main_arg4 (by decide)).trans ((stretch1_keeps_arg4 (W1 m ρ c)).trans (W1_of_ne m ρ c main_arg4 (by decide)))
theorem adj_after_call2 : W4 m ρ c (Proc.devRef .tc main_arg1) = (m ((c : Thread nD τ).loc main_arg1)) :=
  (W4_of_ne m ρ c main_arg1 (by decide)).trans ((W3_of_ne m ρ c main_arg1 (by decide)).trans
    ((stretch1_keeps_arg1 (W1 m ρ c)).trans (W1_of_ne m ρ c main_arg1 (by decide))))
theorem bias2_after_call2 : W4 m ρ c (Proc.devRef .tc main_arg5) = (m ((c : Thread nD τ).loc main_arg5)) :=
  (W4_of_ne m ρ c main_arg5 (by decide)).trans ((W3_of_ne m ρ c main_arg5 (by decide)).trans
    ((stretch1_keeps_arg5 (W1 m ρ c)).trans (W1_of_ne m ρ c main_arg5 (by decide))))

/-! ## The walk -/

/-- After the first call its result is `X · W₁`. -/
theorem support1 : W1 m ρ c (Proc.devRef .tc main_v0) = project (m ((c : Thread nD τ).loc main_arg0)) (m ((c : Thread nD τ).loc main_arg2)) :=
  (W1_arr m ρ c 2).trans (product_array_first (V0 m ρ) c)

/-- After the second call its result is `relu (A · (X · W₁) + b₁)`. -/
theorem hidden : W3 m ρ c (Proc.devRef .tc main_v3)
    = aggregate (m ((c : Thread nD τ).loc main_arg1)) (project (m ((c : Thread nD τ).loc main_arg0)) (m ((c : Thread nD τ).loc main_arg2))) (m ((c : Thread nD τ).loc main_arg3)) := by
  refine ((W3_arr m ρ c 3).trans (aggregate_array_first (V2 m ρ) c)).trans ?_
  have ea : V2 m ρ c main_v1 = shapeCast S25x400x10000 (m ((c : Thread nD τ).loc main_arg1)) shapeCasts_S10000x10000_S25x400x10000 :=
    (stretch1_slabs (W1 m ρ c)).trans (congrArg (fun a => shapeCast S25x400x10000 a shapeCasts_S10000x10000_S25x400x10000) (adj_after_call0 m ρ c))
  have es : V2 m ρ c main_v0 = project (m ((c : Thread nD τ).loc main_arg0)) (m ((c : Thread nD τ).loc main_arg2)) :=
    (stretch1_keeps_v0 (W1 m ρ c)).trans (support1 m ρ c)
  have eb : V2 m ρ c main_v2 = shapeCast S1x128 (m ((c : Thread nD τ).loc main_arg3)) shapeCasts_S128_S1x128 :=
    (stretch1_biasRow (W1 m ρ c)).trans (congrArg (fun a => shapeCast S1x128 a shapeCasts_S128_S1x128) (bias1_after_call0 m ρ c))
  rw [ea, es, eb]
  exact aggregateSlabs_reshape _ _ _ _ _

/-- After the third call its result is `H · W₂`. -/
theorem support2 : W4 m ρ c (Proc.devRef .tc main_v4)
    = project (aggregate (m ((c : Thread nD τ).loc main_arg1)) (project (m ((c : Thread nD τ).loc main_arg0)) (m ((c : Thread nD τ).loc main_arg2))) (m ((c : Thread nD τ).loc main_arg3))) (m ((c : Thread nD τ).loc main_arg4)) := by
  refine ((W4_arr m ρ c 2).trans (product_array_second (V3 m ρ) c)).trans ?_
  have eh : V3 m ρ c main_v3 = aggregate (m ((c : Thread nD τ).loc main_arg1)) (project (m ((c : Thread nD τ).loc main_arg0)) (m ((c : Thread nD τ).loc main_arg2))) (m ((c : Thread nD τ).loc main_arg3)) := hidden m ρ c
  have ew : V3 m ρ c main_arg4 = (m ((c : Thread nD τ).loc main_arg4)) := weights2_after_call1 m ρ c
  rw [eh, ew]

/-- After the fourth call the result buffer holds the two layers of the arguments. -/
theorem result_value : W6 m ρ c (Proc.devRef .tc main_v7)
    = twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W6_arr m ρ c 3).trans (aggregate_array_second (V5 m ρ) c)).trans ?_
  have ea : V5 m ρ c main_v5 = shapeCast S25x400x10000 (m ((c : Thread nD τ).loc main_arg1)) shapeCasts_S10000x10000_S25x400x10000 :=
    (stretch2_slabs (W4 m ρ c)).trans (congrArg (fun a => shapeCast S25x400x10000 a shapeCasts_S10000x10000_S25x400x10000) (adj_after_call2 m ρ c))
  have es : V5 m ρ c main_v4 = project (aggregate (m ((c : Thread nD τ).loc main_arg1)) (project (m ((c : Thread nD τ).loc main_arg0)) (m ((c : Thread nD τ).loc main_arg2))) (m ((c : Thread nD τ).loc main_arg3))) (m ((c : Thread nD τ).loc main_arg4)) :=
    (stretch2_keeps_v4 (W4 m ρ c)).trans (support2 m ρ c)
  have eb : V5 m ρ c main_v6 = shapeCast S1x128 (m ((c : Thread nD τ).loc main_arg5)) shapeCasts_S128_S1x128 :=
    (stretch2_biasRow (W4 m ρ c)).trans (congrArg (fun a => shapeCast S1x128 a shapeCasts_S128_S1x128) (bias2_after_call2 m ρ c))
  rw [ea, es, eb]
  exact aggregateSlabs_reshape _ _ _ _ _

/-- Every weakly fair execution of the idealized kernel terminates with its result at the two layers of the
    arguments and the arguments unchanged. -/
theorem run : θ_run defs (onTc (τ := τ) (main (F := Ideal))) ⟨m, fun _ => 0, ρ⟩ (fun r => ∀ c : Dev nD,
      r.2.mem ((c.tc : Thread nD τ).loc main_v7)
        = twoLayers (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩)
    (Cert.KernelIdeal.Result.run_result m ρ)

end Cert.KernelIdeal.Walk

end
-- ==== Proof.ReferenceValue.lean ====
/-
  The reference, read as the two layers. Its @main is, in order: the product of the features and the first weights;
  the product of the adjacency and that; the first bias broadcast along the rows and added; the maximum with a zero
  array; then the same four steps again with the second weights and bias. Over the extended reals a `dot_general` with
  one contracted axis is the plain sum over it, a broadcast reads its operand at the surviving coordinates, and the
  zero word is `0`: so the first four steps are `aggregate A (project X W₁) b₁`, the last four are the same over the
  hidden layer, and the whole reference is `twoLayers` of its six arguments.
-/
import proofs.«166686_g37366215475445_fold_wed_m_921_3_alg».proof.Proof.Gen.ReferenceIdeal.Read
import proofs.«166686_g37366215475445_fold_wed_m_921_3_alg».proof.Proof.Layers

noncomputable section

namespace Cert.ReferenceIdeal.Meaning

open Cert.ReferenceIdeal Cert.ReferenceIdeal.Gen Cert.ReferenceIdeal.Read Cert.Gcn
open Idealize.ShloMosaic Idealize.ShloMosaic.ValueIdx
open scoped BigOperators

/-! ## The operand indices of the four products and the two bias broadcasts, as row and column -/

theorem left_features1 (i : S10000x128.Idx) (k : Fin 128) : lidx_main_v0 i k = ix2 (⟨(i 0).val, (i 0).isLt⟩ : Fin 10000) k :=
  funext fun a => Fin.ext (by match a with | ⟨0, _⟩ => rfl | ⟨1, _⟩ => rfl)
theorem right_weights1 (i : S10000x128.Idx) (k : Fin 128) : ridx_main_v0 i k = ix2 k (⟨(i 1).val, (i 1).isLt⟩ : Fin 128) :=
  funext fun a => Fin.ext (by match a with | ⟨0, _⟩ => rfl | ⟨1, _⟩ => rfl)
theorem left_adjacency1 (i : S10000x128.Idx) (k : Fin 10000) : lidx_main_v1 i k = ix2 (⟨(i 0).val, (i 0).isLt⟩ : Fin 10000) k :=
  funext fun a => Fin.ext (by match a with | ⟨0, _⟩ => rfl | ⟨1, _⟩ => rfl)
theorem right_support1 (i : S10000x128.Idx) (k : Fin 10000) : ridx_main_v1 i k = ix2 k (⟨(i 1).val, (i 1).isLt⟩ : Fin 128) :=
  funext fun a => Fin.ext (by match a with | ⟨0, _⟩ => rfl | ⟨1, _⟩ => rfl)
theorem left_hidden (i : S10000x128.Idx) (k : Fin 128) : lidx_main_v6 i k = ix2 (⟨(i 0).val, (i 0).isLt⟩ : Fin 10000) k :=
  funext fun a => Fin.ext (by match a with | ⟨0, _⟩ => rfl | ⟨1, _⟩ => rfl)
theorem right_weights2 (i : S10000x128.Idx) (k : Fin 128) : ridx_main_v6 i k = ix2 k (⟨(i 1).val, (i 1).isLt⟩ : Fin 128) :=
  funext fun a => Fin.ext (by match a with | ⟨0, _⟩ => rfl | ⟨1, _⟩ => rfl)
theorem left_adjacency2 (i : S10000x128.Idx) (k : Fin 10000) : lidx_main_v7 i k = ix2 (⟨(i 0).val, (i 0).isLt⟩ : Fin 10000) k :=
  funext fun a => Fin.ext (by match a with | ⟨0, _⟩ => rfl | ⟨1, _⟩ => rfl)
theorem right_support2 (i : S10000x128.Idx) (k : Fin 10000) : ridx_main_v7 i k = ix2 k (⟨(i 1).val, (i 1).isLt⟩ : Fin 128) :=
  funext fun a => Fin.ext (by match a with | ⟨0, _⟩ => rfl | ⟨1, _⟩ => rfl)
theorem bias1_column (i : S10000x128.Idx) : idx_main_v2 (idx_main_v3 i) = ix1 (⟨(i 1).val, (i 1).isLt⟩ : Fin 128) :=
  funext fun a => Fin.ext (by match a with | ⟨0, _⟩ => rfl)
theorem bias2_column (i : S10000x128.Idx) : idx_main_v8 (idx_main_v9 i) = ix1 (⟨(i 1).val, (i 1).isLt⟩ : Fin 128) :=
  funext fun a => Fin.ext (by match a with | ⟨0, _⟩ => rfl)

/-! ## The stages -/

/-- The first product is `X · W₁`. -/
theorem support1_is (x0 : (⟨S10000x128, .f32⟩ : BufTy).Contents (Elt Ideal)) (x2 : (⟨S128x128, .f32⟩ : BufTy).Contents (Elt Ideal)) :
    val_main_v0 (F := Ideal) x0 x2 = project x0 x2 := by
  funext i
  rw [val_main_v0_apply]
  simp only [left_features1, right_weights1]
  rfl

/-- The first four steps are `relu (A · (X · W₁) + b₁)`. -/
theorem hidden_is (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v5 (F := Ideal) x0 x1 x2 x3 = aggregate x1 (project x0 x2) x3 := by
  funext i
  rw [val_main_v5_apply, val_main_v4_apply, val_main_v1_apply, val_main_v3_apply, val_main_v2_apply,
    val_main_call0_v0_apply, val_main_call0_cst_apply, support1_is]
  simp only [left_adjacency1, right_support1, bias1_column, Ideal.maximumf_def, Ideal.addf_def, Ideal.ofBits_def,
    Ideal.ofBits_zero_f32]
  rfl

/-- The third product is `H · W₂`. -/
theorem support2_is (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v6 (F := Ideal) x0 x1 x2 x3 x4 = project (aggregate x1 (project x0 x2) x3) x4 := by
  funext i
  rw [val_main_v6_apply, hidden_is]
  simp only [left_hidden, right_weights2]
  rfl

/-- The whole reference is the two layers of its arguments. -/
theorem result_is (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v11 (F := Ideal) x0 x1 x2 x3 x4 x5 = twoLayers x0 x1 x2 x3 x4 x5 := by
  funext i
  rw [val_main_v11_apply, val_main_v10_apply, val_main_v7_apply, val_main_v9_apply, val_main_v8_apply,
    val_main_call1_v0_apply, val_main_call1_cst_apply, support2_is]
  simp only [left_adjacency2, right_support2, bias2_column, Ideal.maximumf_def, Ideal.addf_def, Ideal.ofBits_def,
    Ideal.ofBits_zero_f32]
  rfl

end Cert.ReferenceIdeal.Meaning

end
-- ==== Proof.lean ====
/-
  Two graph-convolution layers on a dense adjacency matrix,
      out = relu (A · (relu (A · (X · W₁) + b₁) · W₂) + b₂),
  computed by four pipelined matrix products (each feature product over five blocks of 2000 rows, each aggregation
  over 25 slabs of 400 adjacency rows with the bias added and the rectifier applied in the same pass), against the
  same formula written with four whole matrix products.

  Over the extended reals a matrix product is the plain sum over the contracted axis, on the matrix unit (into a zero
  accumulator) as on the host, so a blocked product is the whole product row by row: nothing is regrouped, no factor
  is moved across a sum, and no finiteness of the inputs is used. Both programs end at `Cert.Gcn.twoLayers` of the six
  arguments (Proof/Layers.lean):
    * Proof/ProductBlock.lean, Proof/AggregateBlock.lean — one block's stored value, entry by entry;
    * Proof/ProductArray.lean, Proof/AggregateArray.lean — the blocks tile the rows, so each call leaves the whole
      product, or the whole aggregation, of the arrays it finds;
    * Proof/ResultRun.lean, Proof/KernelValue.lean — the kernel's run with its result named, and the result walked
      back through the four calls and the two stretches of reshapes to the launch arguments;
    * Proof/ReferenceValue.lean — the reference's run, read operation by operation, is the same function.
  The idealization rewrote no operation, so the kernel's idealized program is its own text and that conjunct is
  trivial; the three runs terminate without fault and leave the arguments as launched.
-/
import proofs.«166686_g37366215475445_fold_wed_m_921_3_alg».proof.Defs
import proofs.«166686_g37366215475445_fold_wed_m_921_3_alg».proof.Proof.Gen.Kernel
import proofs.«166686_g37366215475445_fold_wed_m_921_3_alg».proof.Proof.Gen.Kernel.Skeleton
import proofs.«166686_g37366215475445_fold_wed_m_921_3_alg».proof.Proof.Gen.Kernel.Launch
import proofs.«166686_g37366215475445_fold_wed_m_921_3_alg».proof.Proof.Gen.Kernel.Points
import proofs.«166686_g37366215475445_fold_wed_m_921_3_alg».proof.Proof.Gen.Kernel.Frame
import proofs.«166686_g37366215475445_fold_wed_m_921_3_alg».proof.Proof.Gen.KernelIdeal
import proofs.«166686_g37366215475445_fold_wed_m_921_3_alg».proof.Proof.Gen.KernelIdeal.Skeleton
import proofs.«166686_g37366215475445_fold_wed_m_921_3_alg».proof.Proof.Gen.KernelIdeal.Launch
import proofs.«166686_g37366215475445_fold_wed_m_921_3_alg».proof.Proof.Gen.KernelIdeal.Points
import proofs.«166686_g37366215475445_fold_wed_m_921_3_alg».proof.Proof.Gen.KernelIdeal.Frame
import proofs.«166686_g37366215475445_fold_wed_m_921_3_alg».proof.Proof.Gen.ReferenceIdeal
import proofs.«166686_g37366215475445_fold_wed_m_921_3_alg».proof.Proof.Gen.ReferenceIdeal.Run
import proofs.«166686_g37366215475445_fold_wed_m_921_3_alg».proof.Proof.Gen.ReferenceIdeal.Read
import proofs.«166686_g37366215475445_fold_wed_m_921_3_alg».proof.Proof.Gen.Pre_finite_inputs
import proofs.«166686_g37366215475445_fold_wed_m_921_3_alg».proof.Proof.KernelValue
import proofs.«166686_g37366215475445_fold_wed_m_921_3_alg».proof.Proof.ReferenceValue
import Idealize.ShloMosaic.Adequacy
import Idealize.ShloMosaic.Init

noncomputable section

namespace Cert.Proof

open Idealize.ShloMosaic Idealize.SL.Sem

/-- The kernel as printed runs to the end and leaves its arguments. -/
theorem frame_kernel : Cert.frame_Kernel := fun m ρ _ => Cert.Kernel.Gen.frame m ρ

/-- So does its idealized program. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments both programs end with the two layers of those arguments in their
    result: the kernel by the walk through its four calls, the reference by reading its operations. -/
theorem algebraic : Cert.algebraic_KernelIdeal_ReferenceIdeal := by
  intro m ρ m' ρ' _ hagree
  refine ⟨_, Cert.KernelIdeal.Walk.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5⟩ := hagree c
  rw [(h c).1, Cert.ReferenceIdeal.Read.val_main_v11_eq, Cert.ReferenceIdeal.Meaning.result_is, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
